-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S16x7 .f32) (main_arg5 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg4
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x16 .f32) (main_arg3 : FVec F S16 .f32) (main_arg4 : FVec F S16x7 .f32) (main_arg5 : FVec F S7 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x16 : Shape := ⟨2, ![1, 16]⟩
abbrev S1x7 : Shape := ⟨2, ![1, 7]⟩
abbrev S10000x16 : Shape := ⟨2, ![10000, 16]⟩
abbrev S2000x512 : Shape := ⟨2, ![2000, 512]⟩
abbrev S2000x16 : Shape := ⟨2, ![2000, 16]⟩
abbrev S10000x7 : Shape := ⟨2, ![10000, 7]⟩
abbrev S400x10000 : Shape := ⟨2, ![400, 10000]⟩
abbrev S400x7 : Shape := ⟨2, ![400, 7]⟩
abbrev S400x16 : Shape := ⟨2, ![400, 16]⟩

abbrev nBuf : Space → Nat
  | .hbm => 11
  | .vmem => 18
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x16, .f32⟩
  | .hbm, ⟨7, _⟩ => ⟨S1x7, .f32⟩
  | .hbm, ⟨8, _⟩ => ⟨S10000x16, .f32⟩
  | .hbm, ⟨9, _⟩ => ⟨S10000x7, .f32⟩
  | .hbm, ⟨10, _⟩ => ⟨S10000x7, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S400x10000, .f32⟩
  | .local _ .vmem, ⟨6, _⟩ => ⟨S400x10000, .f32⟩
  | .local _ .vmem, ⟨7, _⟩ => ⟨S10000x16, .f32⟩
  | .local _ .vmem, ⟨8, _⟩ => ⟨S1x16, .f32⟩
  | .local _ .vmem, ⟨9, _⟩ => ⟨S16x7, .f32⟩
  | .local _ .vmem, ⟨10, _⟩ => ⟨S400x7, .f32⟩
  | .local _ .vmem, ⟨11, _⟩ => ⟨S400x7, .f32⟩
  | .local _ .vmem, ⟨12, _⟩ => ⟨S400x10000, .f32⟩
  | .local _ .vmem, ⟨13, _⟩ => ⟨S400x10000, .f32⟩
  | .local _ .vmem, ⟨14, _⟩ => ⟨S10000x7, .f32⟩
  | .local _ .vmem, ⟨15, _⟩ => ⟨S1x7, .f32⟩
  | .local _ .vmem, ⟨16, _⟩ => ⟨S400x7, .f32⟩
  | .local _ .vmem, ⟨17, _⟩ => ⟨S400x7, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x7 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S16_S1x16 : S16.ShapeCasts S1x16
  shapeCasts_S7_S1x7 : S7.ShapeCasts S1x7
  inb_S2000x512_S2000x512_0_0 : ∀ a, (![0, 0] : Fin 2 → Nat) a + S2000x512.size a ≤ S2000x512.size a
  h_S2000x512 : 0 < S2000x512.numel
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x7_S16x7_0_0 : ∀ a, (![0, 0] : Fin 2 → Nat) a + S16x7.size a ≤ S16x7.size a
  h_S16x7 : 0 < S16x7.numel
  inb_S400x7_S400x7_0_0 : ∀ a, (![0, 0] : Fin 2 → Nat) a + S400x7.size a ≤ S400x7.size a
  h_S400x7 : 0 < S400x7.numel
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S400x7 : S1x7.Broadcasts S400x7
  dot_S2000x512_S512x16_S2000x16_1_0_0_1_n_n_wf : DotDims.WF S2000x512 S512x16 S2000x16 [1] [0] [0] [1] [] []
  dot_S400x10000_S10000x16_S400x16_1_0_0_1_n_n_wf : DotDims.WF S400x10000 S10000x16 S400x16 [1] [0] [0] [1] [] []
  dot_S400x16_S16x7_S400x7_1_0_0_1_n_n_wf : DotDims.WF S400x16 S16x7 S400x7 [1] [0] [0] [1] [] []
  dot_S400x10000_S10000x7_S400x7_1_0_0_1_n_n_wf : DotDims.WF S400x10000 S10000x7 S400x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S10000x16.size a
  hwx0_2 : ∀ i : grid0.Coords, EltTy.bits .f32 = 32 ∨ (Rect.block (s := S10000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x7.size a ≤ S16x7.size a
  hwx1_3 : ∀ i : grid1.Coords, EltTy.bits .f32 = 32 ∨ (Rect.block (s := S16x7) S16x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x7.size a ≤ S10000x7.size a
  hwx1_4 : ∀ i : grid1.Coords, EltTy.bits .f32 = 32 ∨ (Rect.block (s := S10000x7) S400x7.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x7.size a ≤ S10000x7.size a
  hwx2_1 : ∀ i : grid2.Coords, EltTy.bits .f32 = 32 ∨ (Rect.block (s := S10000x7) S10000x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x7.size a ≤ S10000x7.size a
  hwx2_3 : ∀ i : grid2.Coords, EltTy.bits .f32 = 32 ∨ (Rect.block (s := S10000x7) S400x7.size (cc2_transform_3 i) (hinb2_3 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x7_S400x7_1_0_0_1_n_n : DotDims S400x16 S16x7 S400x7 where
  lhsContracting := [1]
  rhsContracting := [0]
  lhsNonContracting := [0]
  rhsNonContracting := [1]
  lhsBatch := []
  rhsBatch := []
  wf := dot_S400x16_S16x7_S400x7_1_0_0_1_n_n_wf
def dot_S400x10000_S10000x7_S400x7_1_0_0_1_n_n : DotDims S400x10000 S10000x7 S400x7 where
  lhsContracting := [1]
  rhsContracting := [0]
  lhsNonContracting := [0]
  rhsNonContracting := [1]
  lhsBatch := []
  rhsBatch := []
  wf := dot_S400x10000_S10000x7_S400x7_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S400x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S10000x16 : Shape := ⟨2, ![10000, 16]⟩
abbrev S1x16 : Shape := ⟨2, ![1, 16]⟩
abbrev S_ : Shape := ⟨0, ![]⟩
abbrev S10000x7 : Shape := ⟨2, ![10000, 7]⟩
abbrev S1x7 : Shape := ⟨2, ![1, 7]⟩

abbrev nBuf : Space → Nat
  | .hbm => 19
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  dot_S10000x512_S512x16_S10000x16_1_0_0_1_n_n_wf : DotDims.WF S10000x512 S512x16 S10000x16 [1] [0] [0] [1] [] []
  dot_S10000x10000_S10000x16_S10000x16_1_0_0_1_n_n_wf : DotDims.WF S10000x10000 S10000x16 S10000x16 [1] [0] [0] [1] [] []
  dot_S10000x16_S16x7_S10000x7_1_0_0_1_n_n_wf : DotDims.WF S10000x16 S16x7 S10000x7 [1] [0] [0] [1] [] []
  dot_S10000x10000_S10000x7_S10000x7_1_0_0_1_n_n_wf : DotDims.WF S10000x10000 S10000x7 S10000x7 [1] [0] [0] [1] [] []

variable [Facts₀]

def dot_S10000x512_S512x16_S10000x16_1_0_0_1_n_n : DotDims S10000x512 S512x16 S10000x16 where
  lhsContracting := [1]
  rhsContracting := [0]
  lhsNonContracting := [0]
  rhsNonContracting := [1]
  lhsBatch := []
  rhsBatch := []
  wf := dot_S10000x512_S512x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibGinStages.lean ====
/-
  The three dense stages of a graph-isomorphism network, read entry by entry on the extended reals, generic in the row
  count so that one statement serves a whole array and a block of its rows:
  * `embedRows`: one affine layer followed by a ReLU, `max (row · w + b) 0`;
  * `ginRows`: the node's row plus its neighbours' sum, through a two-layer perceptron with a ReLU after each layer;
  * the read-out head is the two-layer perceptron `LibMlp.mlp2` (no ReLU after the second layer).
  Each stage comes in the two spellings the programs use: the vector-unit spelling (operands rounded to bfloat16 — the
  identity on the extended reals —, matrix products into a zero accumulator, a bias laid out as one row and repeated
  down the rows, the ReLU as a maximum with a zero splat) and the host spelling (`dot_general`, two-step bias
  broadcasts, a maximum with a broadcast zero). Both are the same sums of the same products, term by term, so no
  finiteness is used anywhere. Every entry of a stage depends on ONE row of its operands: `embedRows_rows`,
  `ginRows_rows`, `mlp2_rows` say that a stage of a block of rows is that block of the stage.
-/
import proofs.«166199_g7017976561985_cont_sun_m_929_3_alg».proof.Proof.LibMlpRows

noncomputable section

namespace Cert.Net

open Idealize.ShloMosaic Idealize.ShloMosaic.ValueIdx Cert.LibMlp
open scoped BigOperators

/-- The binary32 zero word's value: the floor of every ReLU here. -/
abbrev zr : EReal := Ideal.ofBits .f32 0x00000000#32

/-- One affine layer and a ReLU on every row: entry `(r, q)` is `max (∑ j, X (r, j) · w (j, q) + b q) 0`. -/
def embedRows {R I H : ℕ} (X : (⟨2, ![R, I]⟩ : Shape).Idx → EReal) (w : (⟨2, ![I, H]⟩ : Shape).Idx → EReal)
    (b : (⟨1, ![H]⟩ : Shape).Idx → EReal) : (⟨2, ![R, H]⟩ : Shape).Idx → EReal :=
  fun i => max ((∑ j : Fin I, X (ix2 (i 0) j) * w (ix2 j (i 1))) + b (ix1 (i 1))) zr

/-- A message-passing layer's dense half on every row: the row of `X` plus the row of `A` (the neighbours' sum),
    through the perceptron, floored at zero. -/
def ginRows {R I H O : ℕ} (X A : (⟨2, ![R, I]⟩ : Shape).Idx → EReal) (w1 : (⟨2, ![I, H]⟩ : Shape).Idx → EReal)
    (b1 : (⟨1, ![H]⟩ : Shape).Idx → EReal) (w2 : (⟨2, ![H, O]⟩ : Shape).Idx → EReal) (b2 : (⟨1, ![O]⟩ : Shape).Idx → EReal) :
    (⟨2, ![R, O]⟩ : Shape).Idx → EReal :=
  fun i => max (mlpRow zr (fun j => X (ix2 (i 0) j) + A (ix2 (i 0) j)) w1 b1 w2 b2 (i 1)) zr

theorem embedRows_ix2 {R I H : ℕ} (X : (⟨2, ![R, I]⟩ : Shape).Idx → EReal) (w : (⟨2, ![I, H]⟩ : Shape).Idx → EReal)
    (b : (⟨1, ![H]⟩ : Shape).Idx → EReal) (p : Fin R) (q : Fin H) :
    embedRows X w b (ix2 p q) = max ((∑ j : Fin I, X (ix2 p j) * w (ix2 j q)) + b (ix1 q)) zr := rfl

theorem ginRows_ix2 {R I H O : ℕ} (X A : (⟨2, ![R, I]⟩ : Shape).Idx → EReal) (w1 : (⟨2, ![I, H]⟩ : Shape).Idx → EReal)
    (b1 : (⟨1, ![H]⟩ : Shape).Idx → EReal) (w2 : (⟨2, ![H, O]⟩ : Shape).Idx → EReal) (b2 : (⟨1, ![O]⟩ : Shape).Idx → EReal)
    (p : Fin R) (q : Fin O) :
    ginRows X A w1 b1 w2 b2 (ix2 p q) = max (mlpRow zr (fun j => X (ix2 p j) + A (ix2 p j)) w1 b1 w2 b2 q) zr := rfl

/-! ## A stage of a block of rows is that block of the stage -/

/-- If row `p` of the block `Xb` is row `r` of the array `X`, entry `(p, q)` of the block's stage is entry `(r, q)` of the array's. -/
theorem embedRows_rows {R R' I H : ℕ} (X : (⟨2, ![R, I]⟩ : Shape).Idx → EReal) (Xb : (⟨2, ![R', I]⟩ : Shape).Idx → EReal)
    (w : (⟨2, ![I, H]⟩ : Shape).Idx → EReal) (b : (⟨1, ![H]⟩ : Shape).Idx → EReal) (p : Fin R') (r : Fin R) (q : Fin H)
    (hX : ∀ j, Xb (ix2 p j) = X (ix2 r j)) : embedRows Xb w b (ix2 p q) = embedRows X w b (ix2 r q) := by
  rw [embedRows_ix2, embedRows_ix2]; simp only [hX]

theorem ginRows_rows {R R' I H O : ℕ} (X A : (⟨2, ![R, I]⟩ : Shape).Idx → EReal) (Xb Ab : (⟨2, ![R', I]⟩ : Shape).Idx → EReal)
    (w1 : (⟨2, ![I, H]⟩ : Shape).Idx → EReal) (b1 : (⟨1, ![H]⟩ : Shape).Idx → EReal) (w2 : (⟨2, ![H, O]⟩ : Shape).Idx → EReal)
    (b2 : (⟨1, ![O]⟩ : Shape).Idx → EReal) (p : Fin R') (r : Fin R) (q : Fin O)
    (hX : ∀ j, Xb (ix2 p j) = X (ix2 r j)) (hA : ∀ j, Ab (ix2 p j) = A (ix2 r j)) :
    ginRows Xb Ab w1 b1 w2 b2 (ix2 p q) = ginRows X A w1 b1 w2 b2 (ix2 r q) := by
  rw [ginRows_ix2, ginRows_ix2]; simp only [hX, hA]

theorem mlp2_rows {R R' I H O : ℕ} (X : (⟨2, ![R, I]⟩ : Shape).Idx → EReal) (Xb : (⟨2, ![R', I]⟩ : Shape).Idx → EReal)
    (w1 : (⟨2, ![I, H]⟩ : Shape).Idx → EReal) (b1 : (⟨1, ![H]⟩ : Shape).Idx → EReal) (w2 : (⟨2, ![H, O]⟩ : Shape).Idx → EReal)
    (b2 : (⟨1, ![O]⟩ : Shape).Idx → EReal) (p : Fin R') (r : Fin R) (q : Fin O)
    (hX : ∀ j, Xb (ix2 p j) = X (ix2 r j)) : mlp2 Xb w1 b1 w2 b2 (ix2 p q) = mlp2 X w1 b1 w2 b2 (ix2 r q) := by
  rw [mlp2_ix2, mlp2_ix2]; simp only [hX]

/-! ## The vector-unit spellings, at an entry -/

/-- The embedding body: the block rounded to bfloat16 times the (already bfloat16) weights into a zero accumulator, plus
    the bias row repeated down the rows, floored at the zero splat. -/
theorem embed_body_apply {R I H : ℕ}
    (d : DotDims ⟨2, ![R, I]⟩ ⟨2, ![I, H]⟩ ⟨2, ![R, H]⟩) (hd : d = DotDims.plain R I H)
    (x : FVec Ideal ⟨2, ![R, I]⟩ .f32) (w : FVec Ideal ⟨2, ![I, H]⟩ .bf16) (b : FVec Ideal ⟨1, ![H]⟩ .f32)
    (hw : (⟨2, ![I, H]⟩ : Shape).ShapeCasts ⟨2, ![I, H]⟩)
    (hb : (⟨1, ![H]⟩ : Shape).ShapeCasts ⟨2, ![1, H]⟩) (hB : (⟨2, ![1, H]⟩ : Shape).Broadcasts ⟨2, ![R, H]⟩)
    (ht : FTy.bf16.bits < FTy.f32.bits) (p : Fin R) (q : Fin H) :
    maximumf (addf (matmul d none (truncf .bf16 x ht) (shapeCast ⟨2, ![I, H]⟩ w hw) (constant ⟨2, ![R, H]⟩ .f32 0x00000000#32))
        (broadcastTo ⟨2, ![R, H]⟩ (shapeCast ⟨2, ![1, H]⟩ b hb) hB)) (broadcast ⟨2, ![R, H]⟩ (Scalar.ofBits .f32 0x00000000#32)) (ix2 p q)
    = embedRows x w b (ix2 p q) := by
  subst hd
  simp only [embedRows_ix2, matmul, addf_apply, maximumf_apply, truncf_apply, matmul_zero_plain,
    broadcastTo_1b_ab_apply, shapeCast_a_1a_apply, shapeCast_self, broadcast_apply]
  rfl

/-- The message-passing body: the two loaded blocks added, then the perceptron with a ReLU after each layer. Each
    loaded operand passes through a cast to its own shape first, as the body spells it. -/
theorem gin_body_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x a : FVec Ideal ⟨2, ![R, I]⟩ .f32) (w1 : FVec Ideal ⟨2, ![I, H]⟩ .bf16) (b1 : FVec Ideal ⟨1, ![H]⟩ .f32)
    (w2 : FVec Ideal ⟨2, ![H, O]⟩ .bf16) (b2 : FVec Ideal ⟨1, ![O]⟩ .f32)
    (hx : (⟨2, ![R, I]⟩ : Shape).ShapeCasts ⟨2, ![R, I]⟩)
    (hw1 : (⟨2, ![I, H]⟩ : Shape).ShapeCasts ⟨2, ![I, H]⟩) (hw2 : (⟨2, ![H, O]⟩ : Shape).ShapeCasts ⟨2, ![H, O]⟩)
    (hs1 : (⟨1, ![H]⟩ : Shape).ShapeCasts ⟨1, ![H]⟩) (hs2 : (⟨1, ![O]⟩ : Shape).ShapeCasts ⟨1, ![O]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    maximumf (addf (matmul d2 none (truncf .bf16 (maximumf (addf (matmul d1 none
          (truncf .bf16 (addf (shapeCast ⟨2, ![R, I]⟩ x hx) (shapeCast ⟨2, ![R, I]⟩ a hx)) ht) (shapeCast ⟨2, ![I, H]⟩ w1 hw1) (constant ⟨2, ![R, H]⟩ .f32 0x00000000#32))
        (broadcastTo ⟨2, ![R, H]⟩ (shapeCast ⟨2, ![1, H]⟩ (shapeCast ⟨1, ![H]⟩ b1 hs1) hb1) hB1)) (broadcast ⟨2, ![R, H]⟩ (Scalar.ofBits .f32 0x00000000#32))) ht)
          (shapeCast ⟨2, ![H, O]⟩ w2 hw2) (constant ⟨2, ![R, O]⟩ .f32 0x00000000#32))
      (broadcastTo ⟨2, ![R, O]⟩ (shapeCast ⟨2, ![1, O]⟩ (shapeCast ⟨1, ![O]⟩ b2 hs2) hb2) hB2)) (broadcast ⟨2, ![R, O]⟩ (Scalar.ofBits .f32 0x00000000#32)) (ix2 p q)
    = ginRows x a w1 b1 w2 b2 (ix2 p q) := by
  subst hd1 hd2
  simp only [ginRows_ix2, mlpRow, matmul, addf_apply, maximumf_apply, truncf_apply, matmul_zero_plain,
    broadcastTo_1b_ab_apply, shapeCast_a_1a_apply, shapeCast_self, broadcast_apply]
  rfl

/-- The read-out body: the perceptron with one ReLU, between the layers. -/
theorem head_body_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .bf16) (b1 : FVec Ideal ⟨1, ![H]⟩ .f32)
    (w2 : FVec Ideal ⟨2, ![H, O]⟩ .bf16) (b2 : FVec Ideal ⟨1, ![O]⟩ .f32)
    (hx : (⟨2, ![R, I]⟩ : Shape).ShapeCasts ⟨2, ![R, I]⟩)
    (hw1 : (⟨2, ![I, H]⟩ : Shape).ShapeCasts ⟨2, ![I, H]⟩) (hw2 : (⟨2, ![H, O]⟩ : Shape).ShapeCasts ⟨2, ![H, O]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none
          (truncf .bf16 (shapeCast ⟨2, ![R, I]⟩ x hx) ht) (shapeCast ⟨2, ![I, H]⟩ w1 hw1) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht)
          (shapeCast ⟨2, ![H, O]⟩ w2 hw2) (constant ⟨2, ![R, O]⟩ .f32 0x00000000#32))
      (broadcastTo ⟨2, ![R, O]⟩ (shapeCast ⟨2, ![1, O]⟩ b2 hb2) hB2) (ix2 p q)
    = mlp2 x w1 b1 w2 b2 (ix2 p q) := by
  subst hd1 hd2
  simp only [mlp2_ix2, mlpRow, matmul, addf_apply, maximumf_apply, truncf_apply, matmul_zero_plain,
    broadcastTo_1b_ab_apply, shapeCast_a_1a_apply, shapeCast_self, broadcast_apply]
  rfl

/-! ## The host spellings, at an entry -/

/-- A bias broadcast to one row and then down the rows, read at an entry. -/
theorem bias_rows_apply {R H : ℕ} (b : FVec Ideal ⟨1, ![H]⟩ .f32)
    (hb : (⟨1, ![H]⟩ : Shape).BroadcastsInDim ⟨2, ![1, H]⟩ ![1]) (hB : (⟨2, ![1, H]⟩ : Shape).BroadcastsInDim ⟨2, ![R, H]⟩ ![0, 1])
    (r : Fin R) (k : Fin H) :
    broadcastInDim ⟨2, ![R, H]⟩ ![0, 1] hB (broadcastInDim ⟨2, ![1, H]⟩ ![1] hb b) (ix2 r k) = b (ix1 k) := by
  rw [broadcastInDim_apply ![0, 1] hB _ (ix2 r k) (ix2 (0 : Fin 1) k) (fun a => by
    match a with
    | ⟨0, _⟩ => rfl
    | ⟨1, _⟩ => show k.val = if H = 1 then 0 else k.val; split <;> [(have := k.isLt; omega); rfl])]
  exact broadcastInDim_apply ![1] hb _ (ix2 (0 : Fin 1) k) (ix1 k) (fun a => by
    match a with
    | ⟨0, _⟩ => show k.val = if H = 1 then 0 else k.val; split <;> [(have := k.isLt; omega); rfl])

/-- A scalar zero broadcast to a matrix, read at an entry. -/
theorem zero_rows_apply {R H : ℕ} (hz : (⟨0, ![]⟩ : Shape).BroadcastsInDim ⟨2, ![R, H]⟩ ![]) (r : Fin R) (k : Fin H) :
    broadcastInDim ⟨2, ![R, H]⟩ ![] hz (constant (F := Ideal) ⟨0, ![]⟩ .f32 0x00000000#32) (ix2 r k) = zr :=
  broadcastInDim_apply ![] hz _ (ix2 r k) ix0 (fun a => a.elim0)

/-- The embedding as the host spells it. -/
theorem embed_host_apply {R I H : ℕ}
    (d : DotDims ⟨2, ![R, I]⟩ ⟨2, ![I, H]⟩ ⟨2, ![R, H]⟩) (hd : d = DotDims.plain R I H)
    (x : FVec Ideal ⟨2, ![R, I]⟩ .f32) (w : FVec Ideal ⟨2, ![I, H]⟩ .f32) (b : FVec Ideal ⟨1, ![H]⟩ .f32)
    (hb : (⟨1, ![H]⟩ : Shape).BroadcastsInDim ⟨2, ![1, H]⟩ ![1]) (hB : (⟨2, ![1, H]⟩ : Shape).BroadcastsInDim ⟨2, ![R, H]⟩ ![0, 1])
    (hz : (⟨0, ![]⟩ : Shape).BroadcastsInDim ⟨2, ![R, H]⟩ ![]) (p : Fin R) (q : Fin H) :
    maximumf (addf (Host.dotGeneral d none x w) (broadcastInDim ⟨2, ![R, H]⟩ ![0, 1] hB (broadcastInDim ⟨2, ![1, H]⟩ ![1] hb b)))
      (broadcastInDim ⟨2, ![R, H]⟩ ![] hz (constant (F := Ideal) ⟨0, ![]⟩ .f32 0x00000000#32)) (ix2 p q)
    = embedRows x w b (ix2 p q) := by
  subst hd
  have bias : ∀ (r : Fin R) (k : Fin H), broadcastInDim ⟨2, ![R, H]⟩ ![0, 1] hB (broadcastInDim ⟨2, ![1, H]⟩ ![1] hb b) (ix2 r k) = b (ix1 k) :=
    fun r k => bias_rows_apply b hb hB r k
  have zero : ∀ (r : Fin R) (k : Fin H), broadcastInDim ⟨2, ![R, H]⟩ ![] hz (constant (F := Ideal) ⟨0, ![]⟩ .f32 0x00000000#32) (ix2 r k) = zr :=
    fun r k => zero_rows_apply hz r k
  simp only [embedRows_ix2, Host.dotGeneral, addf_apply, maximumf_apply, dotGeneral_plain, bias, zero]

/-- The message-passing layer as the host spells it: the sum of the two arrays through the perceptron, then the outer ReLU. -/
theorem gin_host_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x a : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz1 : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (hz2 : (⟨0, ![]⟩ : Shape).BroadcastsInDim ⟨2, ![R, O]⟩ ![]) (p : Fin R) (q : Fin O) :
    maximumf (addf (Host.dotGeneral d2 none (maximumf (addf (Host.dotGeneral d1 none (addf x a) w1)
        (broadcastInDim ⟨2, ![R, H]⟩ ![0, 1] hB1 (broadcastInDim ⟨2, ![1, H]⟩ ![1] hb1 b1)))
        (broadcastInDim ⟨2, ![R, H]⟩ ![] hz1 (constant (F := Ideal) ⟨0, ![]⟩ .f32 0x00000000#32))) w2)
      (broadcastInDim ⟨2, ![R, O]⟩ ![0, 1] hB2 (broadcastInDim ⟨2, ![1, O]⟩ ![1] hb2 b2)))
      (broadcastInDim ⟨2, ![R, O]⟩ ![] hz2 (constant (F := Ideal) ⟨0, ![]⟩ .f32 0x00000000#32)) (ix2 p q)
    = ginRows x a w1 b1 w2 b2 (ix2 p q) := by
  rw [maximumf_apply, host_mlp_apply d1 hd1 d2 hd2 (addf x a) w1 b1 w2 b2 hb1 hB1 hz1 hb2 hB2 p q, zero_rows_apply, ginRows_ix2]
  simp only [addf_apply]

/-- Rounding to bfloat16 is the identity on the extended reals, as a statement about whole arrays. -/
theorem truncf_id {S : Shape} (x : FVec Ideal S .f32) (ht : FTy.bf16.bits < FTy.f32.bits) :
    (truncf .bf16 x ht : S.Idx → EReal) = x := by
  funext i; simp only [truncf_apply]

end Cert.Net

end
-- ==== Proof.LibGcnStages.lean ====
/-
  The dense stages of a two-layer graph convolution with a dense adjacency, read entry by entry on the extended
  reals, generic in every extent so that one statement serves a whole array and a block of its rows:
  * `mm`: a matrix product, entry `(r, q)` the sum over `j` of `X (r, j) · W (j, q)`;
  * `affineRows`: a matrix product plus a bias vector repeated down the rows;
  * the hidden layer `relu (A · S + b)` is `Net.embedRows`.
  Each comes in the vector-unit spelling (operands rounded to bfloat16 — the identity on the extended reals —, a
  product into a zero accumulator, the bias read from a one-row array repeated down the rows, the ReLU as a maximum
  with a zero splat) and in the host spelling (`dot_general`, a bias broadcast in two steps). Both are the same sums
  of the same products, term by term, so no finiteness is used. Every entry depends on ONE row of the left operand:
  `mm_rows`, `affineRows_rows` say that a stage of a block of rows is that block of the stage.
-/
import proofs.«166199_g7017976561985_cont_sun_m_929_3_alg».proof.Proof.LibGinStages

noncomputable section

namespace Cert.Gcn

open Idealize.ShloMosaic Idealize.ShloMosaic.ValueIdx Cert.LibMlp Cert.Net
open scoped BigOperators

/-- The matrix product `X · W`: entry `(r, q)` is `∑ j, X (r, j) · W (j, q)`. -/
def mm {R I H : ℕ} (X : (⟨2, ![R, I]⟩ : Shape).Idx → EReal) (W : (⟨2, ![I, H]⟩ : Shape).Idx → EReal) :
    (⟨2, ![R, H]⟩ : Shape).Idx → EReal :=
  fun i => ∑ j : Fin I, X (ix2 (i 0) j) * W (ix2 j (i 1))

/-- The product plus a bias on every row: entry `(r, q)` is `∑ j, X (r, j) · W (j, q) + b q`. -/
def affineRows {R I H : ℕ} (X : (⟨2, ![R, I]⟩ : Shape).Idx → EReal) (W : (⟨2, ![I, H]⟩ : Shape).Idx → EReal)
    (b : (⟨1, ![H]⟩ : Shape).Idx → EReal) : (⟨2, ![R, H]⟩ : Shape).Idx → EReal :=
  fun i => (∑ j : Fin I, X (ix2 (i 0) j) * W (ix2 j (i 1))) + b (ix1 (i 1))

theorem mm_ix2 {R I H : ℕ} (X : (⟨2, ![R, I]⟩ : Shape).Idx → EReal) (W : (⟨2, ![I, H]⟩ : Shape).Idx → EReal)
    (p : Fin R) (q : Fin H) : mm X W (ix2 p q) = ∑ j : Fin I, X (ix2 p j) * W (ix2 j q) := rfl

theorem affineRows_ix2 {R I H : ℕ} (X : (⟨2, ![R, I]⟩ : Shape).Idx → EReal) (W : (⟨2, ![I, H]⟩ : Shape).Idx → EReal)
    (b : (⟨1, ![H]⟩ : Shape).Idx → EReal) (p : Fin R) (q : Fin H) :
    affineRows X W b (ix2 p q) = (∑ j : Fin I, X (ix2 p j) * W (ix2 j q)) + b (ix1 q) := rfl

/-! ## A stage of a block of rows is that block of the stage -/

/-- If row `p` of the block `Xb` is row `r` of the array `X`, entry `(p, q)` of the block's product is entry `(r, q)` of the array's. -/
theorem mm_rows {R R' I H : ℕ} (X : (⟨2, ![R, I]⟩ : Shape).Idx → EReal) (Xb : (⟨2, ![R', I]⟩ : Shape).Idx → EReal)
    (W : (⟨2, ![I, H]⟩ : Shape).Idx → EReal) (p : Fin R') (r : Fin R) (q : Fin H)
    (hX : ∀ j, Xb (ix2 p j) = X (ix2 r j)) : mm Xb W (ix2 p q) = mm X W (ix2 r q) := by
  rw [mm_ix2, mm_ix2]; simp only [hX]

theorem affineRows_rows {R R' I H : ℕ} (X : (⟨2, ![R, I]⟩ : Shape).Idx → EReal) (Xb : (⟨2, ![R', I]⟩ : Shape).Idx → EReal)
    (W : (⟨2, ![I, H]⟩ : Shape).Idx → EReal) (b : (⟨1, ![H]⟩ : Shape).Idx → EReal) (p : Fin R') (r : Fin R) (q : Fin H)
    (hX : ∀ j, Xb (ix2 p j) = X (ix2 r j)) : affineRows Xb W b (ix2 p q) = affineRows X W b (ix2 r q) := by
  rw [affineRows_ix2, affineRows_ix2]; simp only [hX]

/-! ## The vector-unit spellings, at an entry -/

/-- A product of two binary32 blocks into a zero accumulator. -/
theorem mm_body_apply {R I H : ℕ}
    (d : DotDims ⟨2, ![R, I]⟩ ⟨2, ![I, H]⟩ ⟨2, ![R, H]⟩) (hd : d = DotDims.plain R I H)
    (x : FVec Ideal ⟨2, ![R, I]⟩ .f32) (w : FVec Ideal ⟨2, ![I, H]⟩ .f32) (p : Fin R) (q : Fin H) :
    matmul d none x w (constant ⟨2, ![R, H]⟩ .f32 0x00000000#32) (ix2 p q) = mm x w (ix2 p q) := by
  subst hd
  simp only [mm_ix2, matmul, matmul_zero_plain]

/-- The fused layer's body: the adjacency block and the support, both rounded to bfloat16, multiplied into a zero
    accumulator; the bias row `b` (whose entries are the vector `b1`'s) repeated down the rows; the ReLU; then the
    product with the second layer's weights into a zero accumulator. -/
theorem layer_body_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (a : FVec Ideal ⟨2, ![R, I]⟩ .f32) (s : FVec Ideal ⟨2, ![I, H]⟩ .f32) (b : FVec Ideal ⟨2, ![1, H]⟩ .f32)
    (w : FVec Ideal ⟨2, ![H, O]⟩ .f32) (b1 : (⟨1, ![H]⟩ : Shape).Idx → EReal)
    (hbv : ∀ k : Fin H, b (ix2 (0 : Fin 1) k) = b1 (ix1 k))
    (hs : (⟨2, ![I, H]⟩ : Shape).ShapeCasts ⟨2, ![I, H]⟩)
    (hb : (⟨2, ![1, H]⟩ : Shape).ShapeCasts ⟨2, ![1, H]⟩) (hB : (⟨2, ![1, H]⟩ : Shape).Broadcasts ⟨2, ![R, H]⟩)
    (ht : FTy.bf16.bits < FTy.f32.bits) (p : Fin R) (q : Fin O) :
    matmul d2 none (maximumf (addf (matmul d1 none (truncf .bf16 a ht) (truncf .bf16 (shapeCast ⟨2, ![I, H]⟩ s hs) ht) (constant ⟨2, ![R, H]⟩ .f32 0x00000000#32))
        (broadcastTo ⟨2, ![R, H]⟩ (shapeCast ⟨2, ![1, H]⟩ b hb) hB)) (broadcast ⟨2, ![R, H]⟩ (Scalar.ofBits .f32 0x00000000#32)))
      w (constant ⟨2, ![R, O]⟩ .f32 0x00000000#32) (ix2 p q)
    = mm (embedRows a s b1) w (ix2 p q) := by
  subst hd1 hd2
  simp only [mm_ix2, embedRows_ix2, matmul, addf_apply, maximumf_apply, truncf_apply, matmul_zero_plain,
    broadcastTo_1b_ab_apply, shapeCast_self, broadcast_apply, hbv]
  rfl

/-- The last layer's body: the adjacency block and the support, both rounded to bfloat16, multiplied into a zero
    accumulator, plus the bias row `b` (whose entries are the vector `b2`'s) repeated down the rows. -/
theorem affine_body_apply {R I H : ℕ}
    (d : DotDims ⟨2, ![R, I]⟩ ⟨2, ![I, H]⟩ ⟨2, ![R, H]⟩) (hd : d = DotDims.plain R I H)
    (a : FVec Ideal ⟨2, ![R, I]⟩ .f32) (g : FVec Ideal ⟨2, ![I, H]⟩ .f32) (b : FVec Ideal ⟨2, ![1, H]⟩ .f32)
    (b2 : (⟨1, ![H]⟩ : Shape).Idx → EReal) (hbv : ∀ k : Fin H, b (ix2 (0 : Fin 1) k) = b2 (ix1 k))
    (hg : (⟨2, ![I, H]⟩ : Shape).ShapeCasts ⟨2, ![I, H]⟩)
    (hb : (⟨2, ![1, H]⟩ : Shape).ShapeCasts ⟨2, ![1, H]⟩) (hB : (⟨2, ![1, H]⟩ : Shape).Broadcasts ⟨2, ![R, H]⟩)
    (ht : FTy.bf16.bits < FTy.f32.bits) (p : Fin R) (q : Fin H) :
    addf (matmul d none (truncf .bf16 a ht) (truncf .bf16 (shapeCast ⟨2, ![I, H]⟩ g hg) ht) (constant ⟨2, ![R, H]⟩ .f32 0x00000000#32))
      (broadcastTo ⟨2, ![R, H]⟩ (shapeCast ⟨2, ![1, H]⟩ b hb) hB) (ix2 p q)
    = affineRows a g b2 (ix2 p q) := by
  subst hd
  simp only [affineRows_ix2, matmul, addf_apply, truncf_apply, matmul_zero_plain,
    broadcastTo_1b_ab_apply, shapeCast_self, hbv]

/-! ## The host spellings, as whole arrays -/

/-- The host's `dot_general` with the plain dimension numbers is the product, entry by entry. -/
theorem mm_host_eq {R I H : ℕ}
    (d : DotDims ⟨2, ![R, I]⟩ ⟨2, ![I, H]⟩ ⟨2, ![R, H]⟩) (hd : d = DotDims.plain R I H)
    (x : FVec Ideal ⟨2, ![R, I]⟩ .f32) (w : FVec Ideal ⟨2, ![I, H]⟩ .f32) :
    (Host.dotGeneral d none x w : (⟨2, ![R, H]⟩ : Shape).Idx → EReal) = mm x w := by
  subst hd
  funext i
  obtain ⟨p, q, rfl⟩ : ∃ (p : Fin R) (q : Fin H), i = ix2 p q := ⟨i 0, i 1, eq_ix2 i⟩
  rw [mm_ix2]
  simp only [Host.dotGeneral, dotGeneral_plain]

/-- The hidden layer as the host spells it is `embedRows`, as whole arrays. -/
theorem embed_host_eq {R I H : ℕ}
    (d : DotDims ⟨2, ![R, I]⟩ ⟨2, ![I, H]⟩ ⟨2, ![R, H]⟩) (hd : d = DotDims.plain R I H)
    (x : FVec Ideal ⟨2, ![R, I]⟩ .f32) (w : FVec Ideal ⟨2, ![I, H]⟩ .f32) (b : FVec Ideal ⟨1, ![H]⟩ .f32)
    (hb : (⟨1, ![H]⟩ : Shape).BroadcastsInDim ⟨2, ![1, H]⟩ ![1]) (hB : (⟨2, ![1, H]⟩ : Shape).BroadcastsInDim ⟨2, ![R, H]⟩ ![0, 1])
    (hz : (⟨0, ![]⟩ : Shape).BroadcastsInDim ⟨2, ![R, H]⟩ ![]) :
    (maximumf (addf (Host.dotGeneral d none x w) (broadcastInDim ⟨2, ![R, H]⟩ ![0, 1] hB (broadcastInDim ⟨2, ![1, H]⟩ ![1] hb b)))
      (broadcastInDim ⟨2, ![R, H]⟩ ![] hz (constant (F := Ideal) ⟨0, ![]⟩ .f32 0x00000000#32)) : (⟨2, ![R, H]⟩ : Shape).Idx → EReal)
    = embedRows x w b := by
  funext i
  obtain ⟨p, q, rfl⟩ : ∃ (p : Fin R) (q : Fin H), i = ix2 p q := ⟨i 0, i 1, eq_ix2 i⟩
  exact embed_host_apply d hd x w b hb hB hz p q

/-- The last layer as the host spells it — a `dot_general` plus the bias broadcast to one row and then down the
    rows — is `affineRows`, as whole arrays. -/
theorem affine_host_eq {R I H : ℕ}
    (d : DotDims ⟨2, ![R, I]⟩ ⟨2, ![I, H]⟩ ⟨2, ![R, H]⟩) (hd : d = DotDims.plain R I H)
    (x : FVec Ideal ⟨2, ![R, I]⟩ .f32) (w : FVec Ideal ⟨2, ![I, H]⟩ .f32) (b : FVec Ideal ⟨1, ![H]⟩ .f32)
    (hb : (⟨1, ![H]⟩ : Shape).BroadcastsInDim ⟨2, ![1, H]⟩ ![1]) (hB : (⟨2, ![1, H]⟩ : Shape).BroadcastsInDim ⟨2, ![R, H]⟩ ![0, 1]) :
    (addf (Host.dotGeneral d none x w) (broadcastInDim ⟨2, ![R, H]⟩ ![0, 1] hB (broadcastInDim ⟨2, ![1, H]⟩ ![1] hb b))
      : (⟨2, ![R, H]⟩ : Shape).Idx → EReal)
    = affineRows x w b := by
  subst hd
  funext i
  obtain ⟨p, q, rfl⟩ : ∃ (p : Fin R) (q : Fin H), i = ix2 p q := ⟨i 0, i 1, eq_ix2 i⟩
  rw [affineRows_ix2, addf_apply, bias_rows_apply b hb hB p q]
  simp only [Host.dotGeneral, dotGeneral_plain]

/-! ## The two layers together -/

/-- A two-layer graph convolution with adjacency `A`: `A · (relu (A · (X · W1) + b1) · W2) + b2`, entry by entry. -/
def gcn {N D H O : ℕ} (A : (⟨2, ![N, N]⟩ : Shape).Idx → EReal) (X : (⟨2, ![N, D]⟩ : Shape).Idx → EReal)
    (W1 : (⟨2, ![D, H]⟩ : Shape).Idx → EReal) (b1 : (⟨1, ![H]⟩ : Shape).Idx → EReal)
    (W2 : (⟨2, ![H, O]⟩ : Shape).Idx → EReal) (b2 : (⟨1, ![O]⟩ : Shape).Idx → EReal) : (⟨2, ![N, O]⟩ : Shape).Idx → EReal :=
  affineRows A (mm (embedRows A (mm X W1) b1) W2) b2

/-- The host's spelling of the two layers — four `dot_general`s, each bias broadcast in two steps, the ReLU as a
    maximum with a broadcast zero — is `gcn`, as whole arrays. -/
theorem gcn_host_eq {N D H O : ℕ}
    (d1 : DotDims ⟨2, ![N, D]⟩ ⟨2, ![D, H]⟩ ⟨2, ![N, H]⟩) (hd1 : d1 = DotDims.plain N D H)
    (d2 : DotDims ⟨2, ![N, N]⟩ ⟨2, ![N, H]⟩ ⟨2, ![N, H]⟩) (hd2 : d2 = DotDims.plain N N H)
    (d3 : DotDims ⟨2, ![N, H]⟩ ⟨2, ![H, O]⟩ ⟨2, ![N, O]⟩) (hd3 : d3 = DotDims.plain N H O)
    (d4 : DotDims ⟨2, ![N, N]⟩ ⟨2, ![N, O]⟩ ⟨2, ![N, O]⟩) (hd4 : d4 = DotDims.plain N N O)
    (A : FVec Ideal ⟨2, ![N, N]⟩ .f32) (X : FVec Ideal ⟨2, ![N, D]⟩ .f32) (W1 : FVec Ideal ⟨2, ![D, H]⟩ .f32)
    (b1 : FVec Ideal ⟨1, ![H]⟩ .f32) (W2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![N, H]⟩ ![0, 1])
    (hz : (⟨0, ![]⟩ : Shape).BroadcastsInDim ⟨2, ![N, H]⟩ ![])
    (hb2 : (⟨1, ![O]⟩ : Shape).BroadcastsInDim ⟨2, ![1, O]⟩ ![1]) (hB2 : (⟨2, ![1, O]⟩ : Shape).BroadcastsInDim ⟨2, ![N, O]⟩ ![0, 1]) :
    (addf (Host.dotGeneral d4 none A (Host.dotGeneral d3 none
        (maximumf (addf (Host.dotGeneral d2 none A (Host.dotGeneral d1 none X W1))
            (broadcastInDim ⟨2, ![N, H]⟩ ![0, 1] hB1 (broadcastInDim ⟨2, ![1, H]⟩ ![1] hb1 b1)))
          (broadcastInDim ⟨2, ![N, H]⟩ ![] hz (constant (F := Ideal) ⟨0, ![]⟩ .f32 0x00000000#32))) W2))
      (broadcastInDim ⟨2, ![N, O]⟩ ![0, 1] hB2 (broadcastInDim ⟨2, ![1, O]⟩ ![1] hb2 b2)) : (⟨2, ![N, O]⟩ : Shape).Idx → EReal)
    = gcn A X W1 b1 W2 b2 := by
  rw [mm_host_eq d1 hd1 X W1, embed_host_eq d2 hd2 A (mm X W1) b1 hb1 hB1 hz,
    mm_host_eq d3 hd3 (embedRows A (mm X W1) b1) W2,
    affine_host_eq d4 hd4 A (mm (embedRows A (mm X W1) b1) W2) b2 hb2 hB2]
  rfl

end Cert.Gcn

end
-- ==== Proof.RegionSupport.lean ====
/-
  Region 0, the support of the first layer: the grid's five points each multiply a block of 2000 rows of the features
  by the whole weight matrix into a zero accumulator and write the 2000 × 16 product back. Row `2000·t + p` of the
  result therefore depends on row `2000·t + p` of the features only, and the five blocks tile the 10000 rows: the
  array the region leaves is the matrix product of the features and the weights as the region finds them.
-/
import proofs.«166199_g7017976561985_cont_sun_m_929_3_alg».proof.Proof.Gen.KernelIdeal.Frame
import proofs.«166199_g7017976561985_cont_sun_m_929_3_alg».proof.Proof.LibGcnStages
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Support

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers are the plain ones: rows × contraction times contraction × columns. -/
theorem dot_plain : dot_S2000x512_S512x16_S2000x16_1_0_0_1_n_n = DotDims.plain 2000 512 16 := rfl

/-- The body's one stored value at an entry: the block's row times the weights' column. -/
theorem pay_apply (x0 : Vec Ideal S2000x512 .f32) (x1 : Vec Ideal S512x16 .f32) (p : Fin 2000) (q : Fin 16) :
    k0_pay1 (F := Ideal) x0 x1 (ix2 p q) = mm x0 x1 (ix2 p q) := by
  unfold k0_pay1
  exact mm_body_apply _ dot_plain x0 x1 p q

/-- The printed index maps over the grid: the features' block and the result's block are block `t` of the rows, the
    weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-- The features' block at point `t` is rows `2000·t … 2000·t + 1999` of the features. -/
theorem features_block (c : Dev nD) (t : Fin cfg0.N) (x : S2000x512.Idx) (k : S10000x512.Idx)
    (hk0 : (k 0).val = 2000 * t.val + (x 0).val) (hk1 : (k 1).val = (x 1).val) :
    (iblk0 V c 0 t : Vec Ideal S2000x512 .f32) x = (V c main_arg0 : S10000x512.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 512 + 1 * (x 1).val = (k 1).val; rw [e1, hk1]; omega

/-- The weights' block at every point is the whole weight matrix. -/
theorem weights_block (c : Dev nD) (t : Fin cfg0.N) (x : S512x16.Idx) :
    (iblk0 V c 1 t : Vec Ideal S512x16 .f32) x = (V c main_arg2 : S512x16.Idx → EReal) x := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 512 + 1 * (x 0).val = (x 0).val; rw [e2]; omega
  | ⟨1, _⟩ => show win0_1.index t 1 * 16 + 1 * (x 1).val = (x 1).val; rw [e3]; omega

/-- The region's result: the features times the weights, as the region finds them. -/
abbrev support (c : Dev nD) : S10000x16.Idx → EReal :=
  mm (V c main_arg0 : S10000x512.Idx → EReal) (V c main_arg2 : S512x16.Idx → EReal)

/-- What point `t` writes back is block `t` of the product. -/
theorem flushed_eq (c : Dev nD) (t : Fin cfg0.N) :
    (dat0 (F := Ideal) V c).flushed 2 t = ((cfg0.win 2).blk t).view.read (Elt Ideal) (support V c) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  obtain ⟨-, -, -, -, e4, e5, -⟩ := idx_facts t
  funext j
  obtain ⟨p, q, rfl⟩ : ∃ (p : Fin 2000) (q : Fin 16), j = ix2 p q := ⟨j 0, j 1, eq_ix2 (n0 := 2000) (n1 := 16) j⟩
  rw [View.read_apply]
  show k0_pay1 (F := Ideal) (iblk0 V c 0 t) (iblk0 V c 1 t) (ix2 p q) = _
  rw [pay_apply]
  have ht5 : t.val < 5 := (idx_facts t).2.2.2.2.2.2
  have hemb : ((View.whole main_v2).slice ((win0 2).rect t)).emb (ix2 p q)
      = (ix2 (⟨2000 * t.val + p.val, by have := p.isLt; omega⟩ : Fin 10000) q : S10000x16.Idx) := by
    funext a
    apply Fin.ext
    match a with
    | ⟨0, _⟩ => show win0_2.index t 0 * 2000 + 1 * p.val = 2000 * t.val + p.val; rw [e4]; omega
    | ⟨1, _⟩ => show win0_2.index t 1 * 16 + 1 * q.val = q.val; rw [e5]; omega
  rw [hemb]
  rw [show (iblk0 V c 1 t : S512x16.Idx → EReal) = (V c main_arg2 : S512x16.Idx → EReal) from funext (weights_block V c t)]
  exact mm_rows (V c main_arg0 : S10000x512.Idx → EReal) (iblk0 V c 0 t) (V c main_arg2 : S512x16.Idx → EReal) p _ q
    (fun j => features_block V c t (ix2 p j) (ix2 _ j) rfl rfl)

/-- An index of the result is in point `t`'s block iff each coordinate is in the block's range on its axis. -/
theorem mem_blk (t : Fin cfg0.N) (i : S10000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v2).slice (win0_2.rect t)).set ↔ _
  rw [View.set_slice_whole, Rect.mem_set_unit]
  exact Iff.rfl

/-- Row `r` of the result is written back by point `r / 2000`: the five blocks tile the rows. -/
theorem cover (i : S10000x16.Idx) : ∃ t : Fin cfg0.N, (cfg0.win 2).flush t = true ∧ i ∈ ((cfg0.win 2).blk t).view.set := by
  have hi0 : (i 0).val < 10000 := (i 0).isLt
  have hi1 : (i 1).val < 16 := (i 1).isLt
  have hN : cfg0.N = 5 := N_0
  obtain ⟨t, ht⟩ : ∃ t : Fin cfg0.N, t.val = (i 0).val / 2000 := ⟨⟨(i 0).val / 2000, by rw [hN]; omega⟩, rfl⟩
  obtain ⟨-, -, -, -, e4, e5, -⟩ := idx_facts t
  refine ⟨t, flush0_2 t, ?_⟩
  rw [mem_blk]
  intro a
  match a with
  | ⟨0, _⟩ => show win0_2.index t 0 * 2000 ≤ (i 0).val ∧ (i 0).val < win0_2.index t 0 * 2000 + 2000; rw [e4, ht]; omega
  | ⟨1, _⟩ => show win0_2.index t 1 * 16 ≤ (i 1).val ∧ (i 1).val < win0_2.index t 1 * 16 + 16; rw [e5]; omega

/-- The array the region leaves: the features times the weights. -/
theorem final (c : Dev nD) : (dat0 (F := Ideal) V c).arrAt 2 cfg0.N = support V c :=
  (dat0 V c).arrAt_eq_of_cover 2 (support V c) (fun t _ => flushed_eq V c t) cover

end Cert.KernelIdeal.Support

end
-- ==== Proof.RegionHidden.lean ====
/-
  Region 1, the fused first layer: each of the grid's 25 points multiplies a block of 400 rows of the adjacency by the
  whole support (both rounded to bfloat16, the identity on the extended reals) into a zero accumulator, adds the bias
  row down the rows, floors at zero, and multiplies by the whole second weight matrix into a zero accumulator. Row
  `400·t + p` of the result depends on row `400·t + p` of the adjacency only, and the 25 blocks tile the 10000 rows:
  the array the region leaves is `relu (A · S + b) · W` of the arrays as the region finds them, where the one-row bias
  array's entries are those of a vector `b`.
-/
import proofs.«166199_g7017976561985_cont_sun_m_929_3_alg».proof.Proof.Gen.KernelIdeal.Frame
import proofs.«166199_g7017976561985_cont_sun_m_929_3_alg».proof.Proof.LibGcnStages
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen Cert.Gcn Cert.Net

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers of both products are the plain ones. -/
theorem dot_plain1 : dot_S400x10000_S10000x16_S400x16_1_0_0_1_n_n = DotDims.plain 400 10000 16 := rfl
theorem dot_plain2 : dot_S400x16_S16x7_S400x7_1_0_0_1_n_n = DotDims.plain 400 16 7 := rfl

/-- The body's one stored value at an entry, when the bias row's entries are the vector `b`'s. -/
theorem pay_apply (x0 : Vec Ideal S400x10000 .f32) (x1 : Vec Ideal S10000x16 .f32) (x2 : Vec Ideal S1x16 .f32)
    (x3 : Vec Ideal S16x7 .f32) (b : S16.Idx → EReal) (hb : ∀ k : Fin 16, x2 (ix2 (0 : Fin 1) k) = b (ix1 k))
    (p : Fin 400) (q : Fin 7) :
    k1_pay1 (F := Ideal) x0 x1 x2 x3 (ix2 p q) = mm (embedRows x0 x1 b) x3 (ix2 p q) := by
  unfold k1_pay1
  exact layer_body_apply _ dot_plain1 _ dot_plain2 x0 x1 x2 x3 b hb _ _ _ _ p q

/-- The printed index maps over the grid: the adjacency's block and the result's block are block `t` of the rows,
    every other window's block is its whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 25 :=
  (by decide +kernel : ∀ t : Fin grid1.N, _)

/-- The adjacency's block at point `t` is rows `400·t … 400·t + 399` of the adjacency. -/
theorem adjacency_block (c : Dev nD) (t : Fin cfg1.N) (x : S400x10000.Idx) (k : S10000x10000.Idx)
    (hk0 : (k 0).val = 400 * t.val + (x 0).val) (hk1 : (k 1).val = (x 1).val) :
    (iblk1 V c 0 t : Vec Ideal S400x10000 .f32) x = (V c main_arg1 : S10000x10000.Idx → EReal) k := by
  obtain ⟨e0, e1, -⟩ := idx_facts t
  unfold iblk1
  rw [View.read_apply]
  show V c main_arg1 _ = V c main_arg1 _
  congr 1
  funext a
  apply Fin.ext
  match a with
  | ⟨0, _⟩ => show win1_0.index t 0 * 400 + 1 * (x 0).val = (k 0).val; rw [e0, hk0]; omega
  | ⟨1, _⟩ => show win1_0.index t 1 * 10000 + 1 * (x 1).val = (k 1).val; rw [e1, hk1]; omega

/-- The support's block at every point is the whole support. -/
theorem support_block (c : Dev nD) (t : Fin cfg1.N) (x : S10000x16.Idx) :
    (iblk1 V c 1 t : Vec Ideal S10000x16 .f32) x = (V c main_v2 : S10000x16.Idx → EReal) x := by
  obtain ⟨-, -, e2, e3, -⟩ := idx_facts t
  unfold iblk1
  rw [View.read_apply]
  show V c main_v2 _ = V c main_v2 _
  congr 1
  funext a
  apply Fin.ext
  match a with
  | ⟨0, _⟩ => show win1_1.index t 0 * 10000 + 1 * (x 0).val = (x 0).val; rw [e2]; omega
  | ⟨1, _⟩ => show win1_1.index t 1 * 16 + 1 * (x 1).val = (x 1).val; rw [e3]; omega

/-- The bias row's block at every point is the whole one-row array. -/
theorem bias_block (c : Dev nD) (t : Fin cfg1.N) (x : S1x16.Idx) :
    (iblk1 V c 2 t : Vec Ideal S1x16 .f32) x = (V c main_v0 : S1x16.Idx → EReal) x := by
  obtain ⟨-, -, -, -, e4, e5, -⟩ := idx_facts t
  unfold iblk1
  rw [View.read_apply]
  show V c main_v0 _ = V c main_v0 _
  congr 1
  funext a
  apply Fin.ext
  match a with
  | ⟨0, _⟩ => show win1_2.index t 0 * 1 + 1 * (x 0).val = (x 0).val; rw [e4]; omega
  | ⟨1, _⟩ => show win1_2.index t 1 * 16 + 1 * (x 1).val = (x 1).val; rw [e5]; omega

/-- The second weights' block at every point is the whole matrix. -/
theorem weights_block (c : Dev nD) (t : Fin cfg1.N) (x : S16x7.Idx) :
    (iblk1 V c 3 t : Vec Ideal S16x7 .f32) x = (V c main_arg4 : S16x7.Idx → EReal) x := by
  obtain ⟨-, -, -, -, -, -, e6, e7, -⟩ := idx_facts t
  unfold iblk1
  rw [View.read_apply]
  show V c main_arg4 _ = V c main_arg4 _
  congr 1
  funext a
  apply Fin.ext
  match a with
  | ⟨0, _⟩ => show win1_3.index t 0 * 16 + 1 * (x 0).val = (x 0).val; rw [e6]; omega
  | ⟨1, _⟩ => show win1_3.index t 1 * 7 + 1 * (x 1).val = (x 1).val; rw [e7]; omega

/-- The region's result: `relu (A · S + b) · W` of the arrays as the region finds them. -/
abbrev hidden (c : Dev nD) (b : S16.Idx → EReal) : S10000x7.Idx → EReal :=
  mm (embedRows (V c main_arg1 : S10000x10000.Idx → EReal) (V c main_v2 : S10000x16.Idx → EReal) b) (V c main_arg4 : S16x7.Idx → EReal)

/-- What point `t` writes back is block `t` of that array. -/
theorem flushed_eq (c : Dev nD) (b : S16.Idx → EReal)
    (hb : ∀ k : Fin 16, (V c main_v0 : S1x16.Idx → EReal) (ix2 (0 : Fin 1) k) = b (ix1 k)) (t : Fin cfg1.N) :
    (dat1 (F := Ideal) V c).flushed 4 t = ((cfg1.win 4).blk t).view.read (Elt Ideal) (hidden V c b) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x16) hz,
    View.ld_unit_zero (S := S1x16) hz, View.ld_unit_zero (S := S16x7) hz]
  obtain ⟨-, -, -, -, -, -, -, -, e8, e9, ht25⟩ := idx_facts t
  funext j
  obtain ⟨p, q, rfl⟩ : ∃ (p : Fin 400) (q : Fin 7), j = ix2 p q := ⟨j 0, j 1, eq_ix2 (n0 := 400) (n1 := 7) j⟩
  rw [View.read_apply]
  show k1_pay1 (F := Ideal) (iblk1 V c 0 t) (iblk1 V c 1 t) (iblk1 V c 2 t) (iblk1 V c 3 t) (ix2 p q) = _
  rw [pay_apply (iblk1 V c 0 t) (iblk1 V c 1 t) (iblk1 V c 2 t) (iblk1 V c 3 t) b
    (fun k => (bias_block V c t (ix2 (0 : Fin 1) k)).trans (hb k)) p q]
  have hemb : ((View.whole main_v3).slice ((win1 4).rect t)).emb (ix2 p q)
      = (ix2 (⟨400 * t.val + p.val, by have := p.isLt; omega⟩ : Fin 10000) q : S10000x7.Idx) := by
    funext a
    apply Fin.ext
    match a with
    | ⟨0, _⟩ => show win1_4.index t 0 * 400 + 1 * p.val = 400 * t.val + p.val; rw [e8]; omega
    | ⟨1, _⟩ => show win1_4.index t 1 * 7 + 1 * q.val = q.val; rw [e9]; omega
  rw [hemb]
  rw [show (iblk1 V c 1 t : S10000x16.Idx → EReal) = (V c main_v2 : S10000x16.Idx → EReal) from funext (support_block V c t),
    show (iblk1 V c 3 t : S16x7.Idx → EReal) = (V c main_arg4 : S16x7.Idx → EReal) from funext (weights_block V c t)]
  refine mm_rows (embedRows (V c main_arg1 : S10000x10000.Idx → EReal) (V c main_v2 : S10000x16.Idx → EReal) b)
    (embedRows (iblk1 V c 0 t) (V c main_v2 : S10000x16.Idx → EReal) b) (V c main_arg4 : S16x7.Idx → EReal) p _ q (fun k => ?_)
  exact embedRows_rows (V c main_arg1 : S10000x10000.Idx → EReal) (iblk1 V c 0 t) (V c main_v2 : S10000x16.Idx → EReal) b p _ k
    (fun j => adjacency_block V c t (ix2 p j) (ix2 _ j) rfl rfl)

/-- An index of the result is in point `t`'s block iff each coordinate is in the block's range on its axis. -/
theorem mem_blk (t : Fin cfg1.N) (i : S10000x7.Idx) :
    i ∈ ((cfg1.win 4).blk t).view.set ↔ ∀ a : Fin 2, win1_4.index t a * S400x7.size a ≤ (i a).val ∧ (i a).val < win1_4.index t a * S400x7.size a + S400x7.size a := by
  show i ∈ ((View.whole main_v3).slice (win1_4.rect t)).set ↔ _
  rw [View.set_slice_whole, Rect.mem_set_unit]
  exact Iff.rfl

/-- Row `r` of the result is written back by point `r / 400`: the 25 blocks tile the rows. -/
theorem cover (i : S10000x7.Idx) : ∃ t : Fin cfg1.N, (cfg1.win 4).flush t = true ∧ i ∈ ((cfg1.win 4).blk t).view.set := by
  have hi0 : (i 0).val < 10000 := (i 0).isLt
  have hi1 : (i 1).val < 7 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, -, -, e8, e9, -⟩ := idx_facts t
  refine ⟨t, flush1_4 t, ?_⟩
  rw [mem_blk]
  intro a
  match a with
  | ⟨0, _⟩ => show win1_4.index t 0 * 400 ≤ (i 0).val ∧ (i 0).val < win1_4.index t 0 * 400 + 400; rw [e8, ht]; omega
  | ⟨1, _⟩ => show win1_4.index t 1 * 7 ≤ (i 1).val ∧ (i 1).val < win1_4.index t 1 * 7 + 7; rw [e9]; omega

/-- The array the region leaves. -/
theorem final (c : Dev nD) (b : S16.Idx → EReal)
    (hb : ∀ k : Fin 16, (V c main_v0 : S1x16.Idx → EReal) (ix2 (0 : Fin 1) k) = b (ix1 k)) :
    (dat1 (F := Ideal) V c).arrAt 4 cfg1.N = hidden V c b :=
  (dat1 V c).arrAt_eq_of_cover 4 (hidden V c b) (fun t _ => flushed_eq V c b hb t) cover

end Cert.KernelIdeal.Hidden

end
-- ==== Proof.RegionOutput.lean ====
/-
  Region 2, the second layer: each of the grid's 25 points multiplies a block of 400 rows of the adjacency by the whole
  hidden array (both rounded to bfloat16, the identity on the extended reals) into a zero accumulator and adds the bias
  row down the rows. Row `400·t + p` of the result depends on row `400·t + p` of the adjacency only, and the 25 blocks
  tile the 10000 rows: the array the region leaves is `A · G + b` of the arrays as the region finds them, where the
  one-row bias array's entries are those of a vector `b`.
-/
import proofs.«166199_g7017976561985_cont_sun_m_929_3_alg».proof.Proof.Gen.KernelIdeal.Frame
import proofs.«166199_g7017976561985_cont_sun_m_929_3_alg».proof.Proof.LibGcnStages
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers are the plain ones. -/
theorem dot_plain : dot_S400x10000_S10000x7_S400x7_1_0_0_1_n_n = DotDims.plain 400 10000 7 := rfl

/-- The body's one stored value at an entry, when the bias row's entries are the vector `b`'s. -/
theorem pay_apply (x0 : Vec Ideal S400x10000 .f32) (x1 : Vec Ideal S10000x7 .f32) (x2 : Vec Ideal S1x7 .f32)
    (b : S7.Idx → EReal) (hb : ∀ k : Fin 7, x2 (ix2 (0 : Fin 1) k) = b (ix1 k)) (p : Fin 400) (q : Fin 7) :
    k2_pay1 (F := Ideal) x0 x1 x2 (ix2 p q) = affineRows x0 x1 b (ix2 p q) := by
  unfold k2_pay1
  exact affine_body_apply _ dot_plain x0 x1 x2 b hb _ _ _ _ p q

/-- The printed index maps over the grid: the adjacency's block and the result's block are block `t` of the rows,
    every other window's block is its whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 25 :=
  (by decide +kernel : ∀ t : Fin grid2.N, _)

/-- The adjacency's block at point `t` is rows `400·t … 400·t + 399` of the adjacency. -/
theorem adjacency_block (c : Dev nD) (t : Fin cfg2.N) (x : S400x10000.Idx) (k : S10000x10000.Idx)
    (hk0 : (k 0).val = 400 * t.val + (x 0).val) (hk1 : (k 1).val = (x 1).val) :
    (iblk2 V c 0 t : Vec Ideal S400x10000 .f32) x = (V c main_arg1 : S10000x10000.Idx → EReal) k := by
  obtain ⟨e0, e1, -⟩ := idx_facts t
  unfold iblk2
  rw [View.read_apply]
  show V c main_arg1 _ = V c main_arg1 _
  congr 1
  funext a
  apply Fin.ext
  match a with
  | ⟨0, _⟩ => show win2_0.index t 0 * 400 + 1 * (x 0).val = (k 0).val; rw [e0, hk0]; omega
  | ⟨1, _⟩ => show win2_0.index t 1 * 10000 + 1 * (x 1).val = (k 1).val; rw [e1, hk1]; omega

/-- The hidden array's block at every point is the whole array. -/
theorem hidden_block (c : Dev nD) (t : Fin cfg2.N) (x : S10000x7.Idx) :
    (iblk2 V c 1 t : Vec Ideal S10000x7 .f32) x = (V c main_v3 : S10000x7.Idx → EReal) x := by
  obtain ⟨-, -, e2, e3, -⟩ := idx_facts t
  unfold iblk2
  rw [View.read_apply]
  show V c main_v3 _ = V c main_v3 _
  congr 1
  funext a
  apply Fin.ext
  match a with
  | ⟨0, _⟩ => show win2_1.index t 0 * 10000 + 1 * (x 0).val = (x 0).val; rw [e2]; omega
  | ⟨1, _⟩ => show win2_1.index t 1 * 7 + 1 * (x 1).val = (x 1).val; rw [e3]; omega

/-- The bias row's block at every point is the whole one-row array. -/
theorem bias_block (c : Dev nD) (t : Fin cfg2.N) (x : S1x7.Idx) :
    (iblk2 V c 2 t : Vec Ideal S1x7 .f32) x = (V c main_v1 : S1x7.Idx → EReal) x := by
  obtain ⟨-, -, -, -, e4, e5, -⟩ := idx_facts t
  unfold iblk2
  rw [View.read_apply]
  show V c main_v1 _ = V c main_v1 _
  congr 1
  funext a
  apply Fin.ext
  match a with
  | ⟨0, _⟩ => show win2_2.index t 0 * 1 + 1 * (x 0).val = (x 0).val; rw [e4]; omega
  | ⟨1, _⟩ => show win2_2.index t 1 * 7 + 1 * (x 1).val = (x 1).val; rw [e5]; omega

/-- The region's result: `A · G + b` of the arrays as the region finds them. -/
abbrev output (c : Dev nD) (b : S7.Idx → EReal) : S10000x7.Idx → EReal :=
  affineRows (V c main_arg1 : S10000x10000.Idx → EReal) (V c main_v3 : S10000x7.Idx → EReal) b

/-- What point `t` writes back is block `t` of that array. -/
theorem flushed_eq (c : Dev nD) (b : S7.Idx → EReal)
    (hb : ∀ k : Fin 7, (V c main_v1 : S1x7.Idx → EReal) (ix2 (0 : Fin 1) k) = b (ix1 k)) (t : Fin cfg2.N) :
    (dat2 (F := Ideal) V c).flushed 3 t = ((cfg2.win 3).blk t).view.read (Elt Ideal) (output V c b) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x7) hz,
    View.ld_unit_zero (S := S1x7) hz]
  obtain ⟨-, -, -, -, -, -, e6, e7, ht25⟩ := idx_facts t
  funext j
  obtain ⟨p, q, rfl⟩ : ∃ (p : Fin 400) (q : Fin 7), j = ix2 p q := ⟨j 0, j 1, eq_ix2 (n0 := 400) (n1 := 7) j⟩
  rw [View.read_apply]
  show k2_pay1 (F := Ideal) (iblk2 V c 0 t) (iblk2 V c 1 t) (iblk2 V c 2 t) (ix2 p q) = _
  rw [pay_apply (iblk2 V c 0 t) (iblk2 V c 1 t) (iblk2 V c 2 t) b
    (fun k => (bias_block V c t (ix2 (0 : Fin 1) k)).trans (hb k)) p q]
  have hemb : ((View.whole main_v4).slice ((win2 3).rect t)).emb (ix2 p q)
      = (ix2 (⟨400 * t.val + p.val, by have := p.isLt; omega⟩ : Fin 10000) q : S10000x7.Idx) := by
    funext a
    apply Fin.ext
    match a with
    | ⟨0, _⟩ => show win2_3.index t 0 * 400 + 1 * p.val = 400 * t.val + p.val; rw [e6]; omega
    | ⟨1, _⟩ => show win2_3.index t 1 * 7 + 1 * q.val = q.val; rw [e7]; omega
  rw [hemb]
  rw [show (iblk2 V c 1 t : S10000x7.Idx → EReal) = (V c main_v3 : S10000x7.Idx → EReal) from funext (hidden_block V c t)]
  exact affineRows_rows (V c main_arg1 : S10000x10000.Idx → EReal) (iblk2 V c 0 t) (V c main_v3 : S10000x7.Idx → EReal) b p _ q
    (fun j => adjacency_block V c t (ix2 p j) (ix2 _ j) rfl rfl)

/-- An index of the result is in point `t`'s block iff each coordinate is in the block's range on its axis. -/
theorem mem_blk (t : Fin cfg2.N) (i : S10000x7.Idx) :
    i ∈ ((cfg2.win 3).blk t).view.set ↔ ∀ a : Fin 2, win2_3.index t a * S400x7.size a ≤ (i a).val ∧ (i a).val < win2_3.index t a * S400x7.size a + S400x7.size a := by
  show i ∈ ((View.whole main_v4).slice (win2_3.rect t)).set ↔ _
  rw [View.set_slice_whole, Rect.mem_set_unit]
  exact Iff.rfl

/-- Row `r` of the result is written back by point `r / 400`: the 25 blocks tile the rows. -/
theorem cover (i : S10000x7.Idx) : ∃ t : Fin cfg2.N, (cfg2.win 3).flush t = true ∧ i ∈ ((cfg2.win 3).blk t).view.set := by
  have hi0 : (i 0).val < 10000 := (i 0).isLt
  have hi1 : (i 1).val < 7 := (i 1).isLt
  have hN : cfg2.N = 25 := N_2
  obtain ⟨t, ht⟩ : ∃ t : Fin cfg2.N, t.val = (i 0).val / 400 := ⟨⟨(i 0).val / 400, by rw [hN]; omega⟩, rfl⟩
  obtain ⟨-, -, -, -, -, -, e6, e7, -⟩ := idx_facts t
  refine ⟨t, flush2_3 t, ?_⟩
  rw [mem_blk]
  intro a
  match a with
  | ⟨0, _⟩ => show win2_3.index t 0 * 400 ≤ (i 0).val ∧ (i 0).val < win2_3.index t 0 * 400 + 400; rw [e6, ht]; omega
  | ⟨1, _⟩ => show win2_3.index t 1 * 7 ≤ (i 1).val ∧ (i 1).val < win2_3.index t 1 * 7 + 7; rw [e7]; omega

/-- The array the region leaves. -/
theorem final (c : Dev nD) (b : S7.Idx → EReal)
    (hb : ∀ k : Fin 7, (V c main_v1 : S1x7.Idx → EReal) (ix2 (0 : Fin 1) k) = b (ix1 k)) :
    (dat2 (F := Ideal) V c).arrAt 3 cfg2.N = output V c b :=
  (dat2 V c).arrAt_eq_of_cover 3 (output V c b) (fun t _ => flushed_eq V c b hb t) cover

end Cert.KernelIdeal.Output

end
-- ==== Proof.KernelValue.lean ====
/-
  The kernel program's result as one function of its arguments. The buffer contents at the four boundaries of @main:
  * after the two host reshapes: the arguments as launched, and each bias vector laid out as one row;
  * after region 0: `main_v2` holds `X · W1`;
  * after region 1: `main_v3` holds `relu (A · (X · W1) + b1) · W2`;
  * after region 2: `main_v4` holds `A · (relu (A · (X · W1) + b1) · W2) + b2`,
  each region's array being what its blocks leave (the three region modules) of the contents the region is entered
  with, and every buffer a region does not write keeping what it held.
-/
import proofs.«166199_g7017976561985_cont_sun_m_929_3_alg».proof.Proof.KernelRun
import proofs.«166199_g7017976561985_cont_sun_m_929_3_alg».proof.Proof.RegionSupport
import proofs.«166199_g7017976561985_cont_sun_m_929_3_alg».proof.Proof.RegionHidden
import proofs.«166199_g7017976561985_cont_sun_m_929_3_alg».proof.Proof.RegionOutput
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Whole

open Cert.KernelIdeal Cert.KernelIdeal.Gen Cert.Gcn Cert.Net

variable (m : (ℓ : Loc nD τ sig) → Buf (Elt Ideal) ℓ) (ρ : Dev nD → PrngReg)

/-! ## After the two reshapes -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl

/-- The first bias, reshaped: one row whose entry `k` is the vector's entry `k`. -/
theorem W1_v0 (c : Dev nD) : (W1 m ρ c (Proc.devRef .tc main_v0) : S1x16.Idx → EReal)
    = shapeCast S1x16 (m ((c : Thread nD τ).loc main_arg3) : S16.Idx → EReal) shapeCasts_S16_S1x16 := by
  show StableHlo.after hostOps0 (W0 m ρ c) (Proc.devRef .tc main_v0) = _
  after_results <;> rfl
/-- The second bias, reshaped likewise. -/
theorem W1_v1 (c : Dev nD) : (W1 m ρ c (Proc.devRef .tc main_v1) : S1x7.Idx → EReal)
    = shapeCast S1x7 (m ((c : Thread nD τ).loc main_arg5) : S7.Idx → EReal) shapeCasts_S7_S1x7 := by
  show StableHlo.after hostOps0 (W0 m ρ c) (Proc.devRef .tc main_v1) = _
  after_results <;> rfl

theorem bias1_row (c : Dev nD) (k : Fin 16) :
    (W1 m ρ c (Proc.devRef .tc main_v0) : S1x16.Idx → EReal) (ix2 (0 : Fin 1) k) = (m ((c : Thread nD τ).loc main_arg3) : S16.Idx → EReal) (ix1 k) := by
  rw [W1_v0]; exact shapeCast_a_1a_apply _ _ 0 k
theorem bias2_row (c : Dev nD) (k : Fin 7) :
    (W1 m ρ c (Proc.devRef .tc main_v1) : S1x7.Idx → EReal) (ix2 (0 : Fin 1) k) = (m ((c : Thread nD τ).loc main_arg5) : S7.Idx → EReal) (ix1 k) := by
  rw [W1_v1]; exact shapeCast_a_1a_apply _ _ 0 k

/-! ## After region 0 -/

theorem W2_arg1 (c : Dev nD) : W2 m ρ c (Proc.devRef .tc main_arg1) = m ((c : Thread nD τ).loc main_arg1) :=
  (W2_of_ne m ρ c main_arg1 (by decide)).trans (W1_arg1 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v0 (c : Dev nD) : W2 m ρ c (Proc.devRef .tc main_v0) = W1 m ρ c (Proc.devRef .tc main_v0) := W2_of_ne m ρ c main_v0 (by decide)
theorem W2_v1 (c : Dev nD) : W2 m ρ c (Proc.devRef .tc main_v1) = W1 m ρ c (Proc.devRef .tc main_v1) := W2_of_ne m ρ c main_v1 (by decide)

/-- Region 0 leaves the support `X · W1`. -/
theorem W2_v2 (c : Dev nD) : (W2 m ρ c (Proc.devRef .tc main_v2) : S10000x16.Idx → EReal) = mm (m ((c : Thread nD τ).loc main_arg0) : S10000x512.Idx → EReal) (m ((c : Thread nD τ).loc main_arg2) : S512x16.Idx → EReal) := by
  refine ((W2_arr m ρ c 2).trans (Support.final (V1 m ρ) c)).trans ?_
  show mm (W1 m ρ c (Proc.devRef .tc main_arg0) : S10000x512.Idx → EReal) (W1 m ρ c (Proc.devRef .tc main_arg2) : S512x16.Idx → EReal) = _
  rw [W1_arg0, W1_arg2]

/-! ## After region 1 -/

theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)
theorem W3_v1 (c : Dev nD) : W3 m ρ c (Proc.devRef .tc main_v1) = W1 m ρ c (Proc.devRef .tc main_v1) :=
  (W3_of_ne m ρ c main_v1 (by decide)).trans (W2_v1 m ρ c)

/-- Region 1 leaves `relu (A · (X · W1) + b1) · W2`. -/
theorem W3_v3 (c : Dev nD) : (W3 m ρ c (Proc.devRef .tc main_v3) : S10000x7.Idx → EReal)
    = mm (embedRows (m ((c : Thread nD τ).loc main_arg1) : S10000x10000.Idx → EReal) (mm (m ((c : Thread nD τ).loc main_arg0) : S10000x512.Idx → EReal) (m ((c : Thread nD τ).loc main_arg2) : S512x16.Idx → EReal)) (m ((c : Thread nD τ).loc main_arg3) : S16.Idx → EReal)) (m ((c : Thread nD τ).loc main_arg4) : S16x7.Idx → EReal) := by
  refine ((W3_arr m ρ c 4).trans (Hidden.final (V2 m ρ) c (m ((c : Thread nD τ).loc main_arg3) : S16.Idx → EReal) (fun k => ?_))).trans ?_
  · show (W2 m ρ c (Proc.devRef .tc main_v0) : S1x16.Idx → EReal) (ix2 (0 : Fin 1) k) = _
    rw [W2_v0]; exact bias1_row m ρ c k
  · show mm (embedRows (W2 m ρ c (Proc.devRef .tc main_arg1) : S10000x10000.Idx → EReal) (W2 m ρ c (Proc.devRef .tc main_v2) : S10000x16.Idx → EReal) (m ((c : Thread nD τ).loc main_arg3) : S16.Idx → EReal))
        (W2 m ρ c (Proc.devRef .tc main_arg4) : S16x7.Idx → EReal) = _
    rw [W2_arg1, W2_v2, W2_arg4]

/-! ## After region 2 -/

/-- The program's result: the two-layer graph convolution of the arguments. -/
theorem W4_v4 (c : Dev nD) : (W4 m ρ c (Proc.devRef .tc main_v4) : S10000x7.Idx → EReal)
    = gcn (m ((c : Thread nD τ).loc main_arg1) : S10000x10000.Idx → EReal) (m ((c : Thread nD τ).loc main_arg0) : S10000x512.Idx → EReal) (m ((c : Thread nD τ).loc main_arg2) : S512x16.Idx → EReal) (m ((c : Thread nD τ).loc main_arg3) : S16.Idx → EReal) (m ((c : Thread nD τ).loc main_arg4) : S16x7.Idx → EReal) (m ((c : Thread nD τ).loc main_arg5) : S7.Idx → EReal) := by
  refine ((W4_arr m ρ c 3).trans (Output.final (V3 m ρ) c (m ((c : Thread nD τ).loc main_arg5) : S7.Idx → EReal) (fun k => ?_))).trans ?_
  · show (W3 m ρ c (Proc.devRef .tc main_v1) : S1x7.Idx → EReal) (ix2 (0 : Fin 1) k) = _
    rw [W3_v1]; exact bias2_row m ρ c k
  · show affineRows (W3 m ρ c (Proc.devRef .tc main_arg1) : S10000x10000.Idx → EReal) (W3 m ρ c (Proc.devRef .tc main_v3) : S10000x7.Idx → EReal) (m ((c : Thread nD τ).loc main_arg5) : S7.Idx → EReal) = _
    rw [W3_arg1, W3_v3]
    rfl

/-- The run, read: every weakly fair execution terminates with the result array at `gcn` of the arguments and the
    arguments as launched. -/
theorem run : θ_run defs (onTc (τ := τ) (main (F := Ideal))) ⟨m, fun _ => 0, ρ⟩ (fun r => ∀ c : Dev nD,
      r.2.mem ((c.tc : Thread nD τ).loc main_v4) = gcn (m ((c : Thread nD τ).loc main_arg1) : S10000x10000.Idx → EReal) (m ((c : Thread nD τ).loc main_arg0) : S10000x512.Idx → EReal) (m ((c : Thread nD τ).loc main_arg2) : S512x16.Idx → EReal) (m ((c : Thread nD τ).loc main_arg3) : S16.Idx → EReal) (m ((c : Thread nD τ).loc main_arg4) : S16x7.Idx → EReal) (m ((c : Thread nD τ).loc main_arg5) : S7.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W4_v4 m ρ c), (h c).2⟩) (Cert.KernelIdeal.Result.run m ρ)

end Cert.KernelIdeal.Whole

end
-- ==== Proof.ReferenceValue.lean ====
/-
  The reference's result is the two-layer graph convolution of its arguments. Its run ends with the result array at
  the host operations' composed term: `A · (relu (A · (X · W1) + b1) · W2) + b2` spelt with four `dot_general`s, each
  bias broadcast to one row and then down the rows, and the ReLU as a maximum with a broadcast zero. On the extended
  reals every `dot_general` is the plain sum of products, so the term is `Gcn.gcn` of the arguments, entry by entry.
-/
import proofs.«166199_g7017976561985_cont_sun_m_929_3_alg».proof.Proof.Gen.ReferenceIdeal.Run
import proofs.«166199_g7017976561985_cont_sun_m_929_3_alg».proof.Proof.LibGcnStages

noncomputable section

open Idealize.ShloMosaic Idealize.ShloMosaic.TcCoe Idealize.SL.Sem

namespace Cert.ReferenceIdeal.Whole

open Cert.ReferenceIdeal Cert.ReferenceIdeal.Gen Cert.Gcn

/-- The reference run's result term is `gcn` of the argument arrays. -/
theorem result_eq (A : FVec Ideal S10000x10000 .f32) (X : FVec Ideal S10000x512 .f32) (W1 : FVec Ideal S512x16 .f32)
    (b1 : FVec Ideal S16 .f32) (W2 : FVec Ideal S16x7 .f32) (b2 : FVec Ideal S7 .f32) :
    (addf (Host.dotGeneral dot_S10000x10000_S10000x7_S10000x7_1_0_0_1_n_n none A
        (Host.dotGeneral dot_S10000x16_S16x7_S10000x7_1_0_0_1_n_n none
          (maximumf (addf (Host.dotGeneral dot_S10000x10000_S10000x16_S10000x16_1_0_0_1_n_n none A
                (Host.dotGeneral dot_S10000x512_S512x16_S10000x16_1_0_0_1_n_n none X W1))
              (broadcastInDim S10000x16 ![0, 1] bcast_S1x16_S10000x16_0_1 (broadcastInDim S1x16 ![1] bcast_S16_S1x16_1 b1)))
            (broadcastInDim S10000x16 ![] bcast_S_S10000x16 (constant (F := Ideal) S_ .f32 0x00000000#32))) W2))
      (broadcastInDim S10000x7 ![0, 1] bcast_S1x7_S10000x7_0_1 (broadcastInDim S1x7 ![1] bcast_S7_S1x7_1 b2)) : S10000x7.Idx → EReal)
    = gcn A X W1 b1 W2 b2 :=
  gcn_host_eq _ rfl _ rfl _ rfl _ rfl A X W1 b1 W2 b2 _ _ _ _ _

end Cert.ReferenceIdeal.Whole

end
-- ==== Proof.lean ====
/-
  A two-layer graph convolution with a dense adjacency, `A · (relu (A · (X · W1) + b1) · W2) + b2`, computed by three
  kernels one after the other — `X · W1` over blocks of 2000 rows; `relu (A · S + b1) · W2` over blocks of 400 rows of
  the adjacency; `A · G + b2` over blocks of 400 rows of the adjacency — against the same expression written with
  matrix products on the host. The two programs group the products the same way, and on the extended reals a product
  into a zero accumulator, the host's `dot_general` and a rounding to bfloat16 are the plain sum of products and the
  identity: both results are `Gcn.gcn` of the six arguments, entry by entry, with no condition on the arguments.
  * the kernel's side: each region's array as its blocks leave it (RegionSupport, RegionHidden, RegionOutput), composed
    along the buffer contents at @main's boundaries (KernelValue), over the run with the result named (KernelRun);
  * the reference's side: the generated run's composed term is `gcn` (ReferenceValue);
  * the frames of both kernel programs are the generated ones, the reference's frame is its generated run;
  * the idealization rewrote no operation, so there is nothing to preserve.
-/
import proofs.«166199_g7017976561985_cont_sun_m_929_3_alg».proof.Defs
import proofs.«166199_g7017976561985_cont_sun_m_929_3_alg».proof.Proof.Gen.Kernel
import proofs.«166199_g7017976561985_cont_sun_m_929_3_alg».proof.Proof.Gen.Kernel.Frame
import proofs.«166199_g7017976561985_cont_sun_m_929_3_alg».proof.Proof.Gen.KernelIdeal
import proofs.«166199_g7017976561985_cont_sun_m_929_3_alg».proof.Proof.Gen.KernelIdeal.Frame
import proofs.«166199_g7017976561985_cont_sun_m_929_3_alg».proof.Proof.Gen.ReferenceIdeal
import proofs.«166199_g7017976561985_cont_sun_m_929_3_alg».proof.Proof.Gen.ReferenceIdeal.Run
import proofs.«166199_g7017976561985_cont_sun_m_929_3_alg».proof.Proof.Gen.Pre_finite_inputs
import proofs.«166199_g7017976561985_cont_sun_m_929_3_alg».proof.Proof.KernelValue
import proofs.«166199_g7017976561985_cont_sun_m_929_3_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments both programs end with the result array at `gcn` of those arguments:
    the kernel's three regions compose to it, and the reference's composed term is it. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact Cert.ReferenceIdeal.Whole.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
